-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_

variable [Facts]

def fn_part1 {F : FTy → Type} [FloatOps F] (main_arg4 : FVec F S64x16 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x16 .f32 := Host.absf main_arg4
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x64 .f32) (main_arg3 : FVec F S64 .f32) (main_arg4 : FVec F S64x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S10000x64 : Shape := ⟨2, ![10000, 64]⟩
abbrev S2000x128 : Shape := ⟨2, ![2000, 128]⟩
abbrev S2000x64 : Shape := ⟨2, ![2000, 64]⟩
abbrev S1x64 : Shape := ⟨2, ![1, 64]⟩
abbrev S10000x16 : Shape := ⟨2, ![10000, 16]⟩
abbrev S400x10000 : Shape := ⟨2, ![400, 10000]⟩
abbrev S400x64 : Shape := ⟨2, ![400, 64]⟩
abbrev S400x16 : Shape := ⟨2, ![400, 16]⟩

abbrev nBuf : Space → Nat
  | .hbm => 10
  | .vmem => 19
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S10000x64, .f32⟩
  | .hbm, ⟨6, _⟩ => ⟨S1x64, .f32⟩
  | .hbm, ⟨7, _⟩ => ⟨S10000x64, .f32⟩
  | .hbm, ⟨8, _⟩ => ⟨S10000x16, .f32⟩
  | .hbm, ⟨9, _⟩ => ⟨S10000x16, .f32⟩
  | .local _ .vmem, ⟨0, _⟩ => ⟨S2000x128, .f32⟩
  | .local _ .vmem, ⟨1, _⟩ => ⟨S2000x128, .f32⟩
  | .local _ .vmem, ⟨2, _⟩ => ⟨S128x64, .f32⟩
  | .local _ .vmem, ⟨3, _⟩ => ⟨S2000x64, .f32⟩
  | .local _ .vmem, ⟨4, _⟩ => ⟨S2000x64, .f32⟩
  | .local _ .vmem, ⟨5, _⟩ => ⟨S400x10000, .f32⟩
  | .local _ .vmem, ⟨6, _⟩ => ⟨S400x10000, .f32⟩
  | .local _ .vmem, ⟨7, _⟩ => ⟨S10000x64, .f32⟩
  | .local _ .vmem, ⟨8, _⟩ => ⟨S1x64, .f32⟩
  | .local _ .vmem, ⟨9, _⟩ => ⟨S64x16, .f32⟩
  | .local _ .vmem, ⟨10, _⟩ => ⟨S400x64, .f32⟩
  | .local _ .vmem, ⟨11, _⟩ => ⟨S400x64, .f32⟩
  | .local _ .vmem, ⟨12, _⟩ => ⟨S400x16, .f32⟩
  | .local _ .vmem, ⟨13, _⟩ => ⟨S400x16, .f32⟩
  | .local _ .vmem, ⟨14, _⟩ => ⟨S400x10000, .f32⟩
  | .local _ .vmem, ⟨15, _⟩ => ⟨S400x10000, .f32⟩
  | .local _ .vmem, ⟨16, _⟩ => ⟨S10000x16, .f32⟩
  | .local _ .vmem, ⟨17, _⟩ => ⟨S400x16, .f32⟩
  | .local _ .vmem, ⟨18, _⟩ => ⟨S400x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S2000x128_S2000x128_0_0 : ∀ a, (![0, 0] : Fin 2 → Nat) a + S2000x128.size a ≤ S2000x128.size a
  h_S2000x128 : 0 < S2000x128.numel
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  shapeCasts_S64_S1x64 : S64.ShapeCasts S1x64
  inb_S400x10000_S400x10000_0_0 : ∀ a, (![0, 0] : Fin 2 → Nat) a + S400x10000.size a ≤ S400x10000.size a
  h_S400x10000 : 0 < S400x10000.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  inb_S64x16_S64x16_0_0 : ∀ a, (![0, 0] : Fin 2 → Nat) a + S64x16.size a ≤ S64x16.size a
  h_S64x16 : 0 < S64x16.numel
  inb_S400x16_S400x16_0_0 : ∀ a, (![0, 0] : Fin 2 → Nat) a + S400x16.size a ≤ S400x16.size a
  h_S400x16 : 0 < S400x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  dot_S2000x128_S128x64_S2000x64_1_0_0_1_n_n_wf : DotDims.WF S2000x128 S128x64 S2000x64 [1] [0] [0] [1] [] []
  dot_S400x10000_S10000x64_S400x64_1_0_0_1_n_n_wf : DotDims.WF S400x10000 S10000x64 S400x64 [1] [0] [0] [1] [] []
  dot_S400x64_S64x16_S400x16_1_0_0_1_n_n_wf : DotDims.WF S400x64 S64x16 S400x16 [1] [0] [0] [1] [] []
  dot_S400x10000_S10000x16_S400x16_1_0_0_1_n_n_wf : DotDims.WF S400x10000 S10000x16 S400x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S10000x64.size a
  hwx0_2 : ∀ i : grid0.Coords, EltTy.bits .f32 = 32 ∨ (Rect.block (s := S10000x64) S2000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S10000x64.size a
  hwx1_1 : ∀ i : grid1.Coords, EltTy.bits .f32 = 32 ∨ (Rect.block (s := S10000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x64.size a ≤ S10000x64.size a
  hwx1_4 : ∀ i : grid1.Coords, EltTy.bits .f32 = 32 ∨ (Rect.block (s := S10000x64) S400x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x16.size a ≤ S10000x16.size a
  hwx1_5 : ∀ i : grid1.Coords, EltTy.bits .f32 = 32 ∨ (Rect.block (s := S10000x16) S400x16.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S10000x16.size a
  hwx2_1 : ∀ i : grid2.Coords, EltTy.bits .f32 = 32 ∨ (Rect.block (s := S10000x16) S10000x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x16.size a ≤ S10000x16.size a
  hwx2_2 : ∀ i : grid2.Coords, EltTy.bits .f32 = 32 ∨ (Rect.block (s := S10000x16) S400x16.size (cc2_transform_2 i) (hinb2_2 i)).WholeWords (EltTy.packing .f32)

variable [Facts₀]

def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S400x10000_S10000x64_S400x64_1_0_0_1_n_n : DotDims S400x10000 S10000x64 S400x64 where
  lhsContracting := [1]
  rhsContracting := [0]
  lhsNonContracting := [0]
  rhsNonContracting := [1]
  lhsBatch := []
  rhsBatch := []
  wf := dot_S400x10000_S10000x64_S400x64_1_0_0_1_n_n_wf
def dot_S400x64_S64x16_S400x16_1_0_0_1_n_n : DotDims S400x64 S64x16 S400x16 where
  lhsContracting := [1]
  rhsContracting := [0]
  lhsNonContracting := [0]
  rhsNonContracting := [1]
  lhsBatch := []
  rhsBatch := []
  wf := dot_S400x64_S64x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S400x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S400x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_1) S10000x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v3) S400x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x64 : Shape := ⟨2, ![128, 64]⟩
abbrev S64 : Shape := ⟨1, ![64]⟩
abbrev S64x16 : Shape := ⟨2, ![64, 16]⟩
abbrev S10000x64 : Shape := ⟨2, ![10000, 64]⟩
abbrev S1x64 : Shape := ⟨2, ![1, 64]⟩
abbrev S_ : Shape := ⟨0, ![]⟩
abbrev S10000x16 : Shape := ⟨2, ![10000, 16]⟩

abbrev nBuf : Space → Nat
  | .hbm => 15
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S10000x64, .f32⟩
  | .hbm, ⟨6, _⟩ => ⟨S10000x64, .f32⟩
  | .hbm, ⟨7, _⟩ => ⟨S1x64, .f32⟩
  | .hbm, ⟨8, _⟩ => ⟨S10000x64, .f32⟩
  | .hbm, ⟨9, _⟩ => ⟨S10000x64, .f32⟩
  | .hbm, ⟨10, _⟩ => ⟨S_, .f32⟩
  | .hbm, ⟨11, _⟩ => ⟨S10000x64, .f32⟩
  | .hbm, ⟨12, _⟩ => ⟨S10000x64, .f32⟩
  | .hbm, ⟨13, _⟩ => ⟨S10000x16, .f32⟩
  | .hbm, ⟨14, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_cst : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  dot_S10000x128_S128x64_S10000x64_1_0_0_1_n_n_wf : DotDims.WF S10000x128 S128x64 S10000x64 [1] [0] [0] [1] [] []
  dot_S10000x10000_S10000x64_S10000x64_1_0_0_1_n_n_wf : DotDims.WF S10000x10000 S10000x64 S10000x64 [1] [0] [0] [1] [] []
  dot_S10000x64_S64x16_S10000x16_1_0_0_1_n_n_wf : DotDims.WF S10000x64 S64x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.KernelRun.lean ====
/-
  The kernel's run, with every buffer named at the end.

  The program is three launches with one host operation between the first two. Following the buffers through it: each
  launch leaves its own arrays at what its write-backs fold to and every other buffer as it found it; the host operation
  writes its one result. The contents after the last launch are the valuation `W4`. This module states the run with
  that reading kept whole — every weakly fair execution terminates, nothing faults, and in the final state every buffer
  that outlives the launches holds what `W4` says — so that the results' values can be read off `W4` afterwards.
-/
import proofs.«124752_g76905684402632_cont_sun_c4_35_2_alg».proof.Proof.Gen.KernelIdeal.Frame

set_option maxRecDepth 16384

noncomputable section

namespace Cert.KernelIdeal.GcnRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates without a fault, and in its final state every
    buffer that outlives the launches holds the contents `W4` gives it. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.GcnRun

end
-- ==== Proof.Spec.lean ====
/-
  The two-layer graph convolution as one function of its five argument arrays, index by index, over the extended reals.

  With features x : [10000,128], a dense adjacency adj : [10000,10000], weights w1 : [128,64], w2 : [64,16] and a bias
  b1 : [64], the layers are
      s1     = x · w1                          (a matrix product: entry (r, j) is the sum over f of x (r, f) · w1 (f, j))
      hidden = max (adj · s1 + b1, 0)          (the bias added along each row, then the positive part)
      s2     = hidden · w2
      out    = adj · s2
  and the results are the pair (hidden, out). Every product is the plain one — rows times columns, summed over the one
  shared axis — so one definition `matProd` serves all four. The zero the positive part compares against is kept as the
  binary word both programs print for it: the same word stands on both sides and is never evaluated.
-/
import Idealize.ShloMosaic.PureOps.Ideal
import Idealize.ShloMosaic.Lib.ValueIdx

noncomputable section

open scoped BigOperators

namespace Cert.Gcn

open Idealize.ShloMosaic Idealize.ShloMosaic.ValueIdx

/-- The matrix product of an [m,k] array and a [k,n] array: entry (a, b) is the sum over the shared coordinate `c` of
    the left factor at (a, c) times the right factor at (c, b). -/
def matProd {m k n : ℕ} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply {m k n : ℕ} (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A bias added along every row of an [m,n] array, then the positive part: entry (a, b) is max (P (a, b) + bias b, 0). -/
def biasRelu {m n : ℕ} (P : (⟨2, ![m, n]⟩ : Shape).Idx → EReal) (bias : (⟨1, ![n]⟩ : Shape).Idx → EReal) :
    (⟨2, ![m, n]⟩ : Shape).Idx → EReal :=
  fun i => max (P i + bias (ix1 (i 1))) (Ideal.ofBits .f32 0x00000000#32)

theorem biasRelu_apply {m n : ℕ} (P : (⟨2, ![m, n]⟩ : Shape).Idx → EReal) (bias : (⟨1, ![n]⟩ : Shape).Idx → EReal)
    (a : Fin m) (b : Fin n) : biasRelu P bias (ix2 a b) = max (P (ix2 a b) + bias (ix1 b)) (Ideal.ofBits .f32 0x00000000#32) := rfl

variable (x : (⟨2, ![10000, 128]⟩ : Shape).Idx → EReal) (adj : (⟨2, ![10000, 10000]⟩ : Shape).Idx → EReal)
  (w1 : (⟨2, ![128, 64]⟩ : Shape).Idx → EReal) (b1 : (⟨1, ![64]⟩ : Shape).Idx → EReal) (w2 : (⟨2, ![64, 16]⟩ : Shape).Idx → EReal)

/-- The first layer's support: the features times the first weights. -/
def support1 : (⟨2, ![10000, 64]⟩ : Shape).Idx → EReal := matProd x w1

/-- The hidden layer: the adjacency times the first support, plus the bias, positive part. The first result. -/
def hidden : (⟨2, ![10000, 64]⟩ : Shape).Idx → EReal := biasRelu (matProd adj (support1 x w1)) b1

/-- The second layer's support: the hidden layer times the second weights. -/
def support2 : (⟨2, ![10000, 16]⟩ : Shape).Idx → EReal := matProd (hidden x adj w1 b1) w2

/-- The output layer: the adjacency times the second support. The second result. -/
def output : (⟨2, ![10000, 16]⟩ : Shape).Idx → EReal := matProd adj (support2 x adj w1 b1 w2)

end Cert.Gcn

end
-- ==== Proof.LibMat.lean ====
/-
  A matrix product read at an index. For the plain dimension numbers (rows × contraction times contraction × columns)
  a `tpu.matmul` into the zero accumulator, at the ideal values, is at (a, b) the sum over the contracted coordinate `c`
  of the left operand at (a, c) times the right operand at (c, b): the contraction's index set has one axis, and the sum
  over it is re-indexed by that axis's coordinate.
-/
import Idealize.ShloMosaic.PureOps.Ideal.Laws
import Idealize.ShloMosaic.Lib.ValueIdx
import Idealize.ShloMosaic.Lib.ValueLayout

noncomputable section

open scoped BigOperators

namespace Cert.LibMat

open Idealize.ShloMosaic Idealize.ShloMosaic.ValueIdx

/-- The plain dimension numbers over any witness of their well-formedness. -/
abbrev plainDims {m k n : ℕ} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

/-- A plain matrix product into the zero accumulator, at (a, b): the sum over the contracted coordinate. -/
theorem matmul_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (plainDims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (plainDims w) k rfl rfl).symm]
  refine Finset.sum_congr rfl fun c _ => ?_
  have c2 := contrEquiv1_symm_val (plainDims w) k rfl rfl c
  have l2 : (plainDims w).lhsIdx (ix2 a b) ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (plainDims w).rhsIdx (ix2 a b) ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMat

end
-- ==== Proof.Region0.lean ====
/-
  The first launch: the features times the first weights, 2000 rows at a time.

  The grid has five points. Point t reads rows 2000·t … 2000·t + 1999 of the features (all 128 columns) and the whole
  [128,64] weight array, multiplies them into a zero accumulator, and writes the [2000,64] product back as rows
  2000·t … 2000·t + 1999 of the result. Entry (p, q) of that block is the sum over f of features (2000·t + p, f) · weights
  (f, q): exactly entry (2000·t + p, q) of the whole product. The five row blocks tile the result, so after the launch
  the result array is the whole product of the two arrays the launch found — whatever the buffer contents `V` at its entry.
-/
import proofs.«124752_g76905684402632_cont_sun_c4_35_2_alg».proof.Proof.Gen.KernelIdeal.Frame
import proofs.«124752_g76905684402632_cont_sun_c4_35_2_alg».proof.Proof.Spec
import proofs.«124752_g76905684402632_cont_sun_c4_35_2_alg».proof.Proof.LibMat
import Idealize.ShloMosaic.Lib.Pipeline.Value
import Idealize.ShloMosaic.Lib.ValueIdx

set_option maxRecDepth 16384

noncomputable section

open scoped BigOperators

namespace Cert.KernelIdeal.GcnRegion0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem origin : (![0, 0] : Fin 2 → Nat) = fun _ => 0 := funext fun a => by fin_cases a <;> rfl

/-- The body's product of the two loaded blocks, at (p, q): the sum over the shared coordinate. -/
theorem pay_apply (x0 : Vec Ideal S2000x128 .f32) (x1 : Vec Ideal S128x64 .f32) (p : Fin 2000) (q : Fin 64) :
    k0_pay1 (F := Ideal) x0 x1 (ix2 p q) = ∑ f : Fin 128, x0 (ix2 p f) * x1 (ix2 f q) := by
  unfold k0_pay1
  exact Cert.LibMat.matmul_plain_apply _ none x0 x1 p q

/-- What the body leaves in the output block, at an index of the block. -/
theorem out_apply (x0 : Vec Ideal S2000x128 .f32) (x1 : Vec Ideal S128x64 .f32) (y : S2000x64.Idx) :
    out0_2 x0 x1 y = ∑ f : Fin 128, x0 (ix2 (y 0) f) * x1 (ix2 f (y 1)) := by
  unfold out0_2
  rw [View.canon_unit_zero origin]
  simp only [View.ld_unit_zero (S := S2000x128) origin, View.ld_unit_zero (S := S128x64) origin]
  obtain ⟨p, q, rfl⟩ : ∃ (p : Fin 2000) (q : Fin 64), y = ix2 p q := ⟨y 0, y 1, eq_ix2 y⟩
  exact pay_apply x0 x1 p q

/-- The block indices over the grid: the features' row block moves with the result's, every other block index is 0. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

/-- Every row block of the result is some point's. -/
theorem idx_onto : ∀ q0 : Fin 5, ∃ t : Fin cfg0.N, win0_2.index t = ![q0.val, 0] :=
  (by decide +kernel : ∀ q0 : Fin 5, ∃ t : Fin grid0.N, win0_2.index t = ![q0.val, 0])

/-- A block of the product from blocks of the factors: if the loaded blocks read the arrays `A` and `B` along row
    `i 0` and column `i 1`, the body's result at `y` is the whole product of `A` and `B` at `i`. -/
theorem block_read (A : S10000x128.Idx → EReal) (B : S128x64.Idx → EReal) (x0 : Vec Ideal S2000x128 .f32) (x1 : Vec Ideal S128x64 .f32)
    (y : S2000x64.Idx) (i : S10000x64.Idx)
    (h0 : ∀ f : Fin 128, x0 (ix2 (y 0) f) = A (ix2 (i 0) f)) (h1 : ∀ f : Fin 128, x1 (ix2 f (y 1)) = B (ix2 f (i 1))) :
    out0_2 x0 x1 y = matProd A B i := by
  rw [out_apply]
  exact Finset.sum_congr rfl fun f _ => by rw [h0, h1]

/-- What point `t` writes back is its block of the whole product of the arrays the launch found. -/
theorem flushed_eq (c : Dev nD) (t : Fin cfg0.N) :
    (dat0 V c).flushed 2 t = ((cfg0.win 2).blk t).view.read (Elt Ideal) (matProd (V c main_arg0) (V c main_arg2)) := by
  show (cfg0.win 2).cut (grid0.coords t) ((dat0 V c).after 2 t) = _
  rw [after0_2]
  obtain ⟨e0, e1, e2, e3, e4⟩ := idx_facts t
  funext j
  refine block_read (V c main_arg0) (V c main_arg2) (iblk0 V c 0 t) (iblk0 V c 1 t) j (((cfg0.win 2).blk t).view.emb j) (fun f => ?_) (fun f => ?_)
  · show V c main_arg0 (((cfg0.win 0).blk t).view.emb (ix2 (j 0) f)) = V c main_arg0 (ix2 ((((cfg0.win 2).blk t).view.emb j) 0) f)
    refine congrArg (V c main_arg0) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 128 + 1 * f.val = f.val; omega
  · show V c main_arg2 (((cfg0.win 1).blk t).view.emb (ix2 f (j 1))) = V c main_arg2 (ix2 f ((((cfg0.win 2).blk t).view.emb j) 1))
    refine congrArg (V c main_arg2) (funext fun a => Fin.ext ?_)
    match a with
    | ⟨0, _⟩ => show win0_1.index t (0 : Fin 2) * 128 + 1 * f.val = f.val; omega
    | ⟨1, _⟩ => show win0_1.index t (1 : Fin 2) * 64 + 1 * (j 1).val = win0_2.index t (1 : Fin 2) * 64 + 1 * (j 1).val; omega

/-- An index of the result is in point `t`'s block iff each coordinate is in the block's range on its axis. -/
theorem mem_blk (t : Fin cfg0.N) (i : S10000x64.Idx) :
    i ∈ ((cfg0.win 2).blk t).view.set ↔ ∀ a : Fin 2, win0_2.index t a * S2000x64.size a ≤ (i a).val ∧ (i a).val < win0_2.index t a * S2000x64.size a + S2000x64.size a := by
  show i ∈ ((View.whole main_v0).slice (win0_2.rect t)).set ↔ _
  rw [View.set_slice_whole, Rect.mem_set_unit]
  exact Iff.rfl

/-- The row blocks tile the result: row r is in the block of the point r / 2000. -/
theorem cover (i : S10000x64.Idx) : ∃ t : Fin cfg0.N, (cfg0.win 2).flush t = true ∧ i ∈ ((cfg0.win 2).blk t).view.set := by
  have hi0 : (i 0).val < 10000 := (i 0).isLt
  have hi1 : (i 1).val < 64 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 64 ≤ (i 1).val ∧ (i 1).val < win0_2.index t (1 : Fin 2) * 64 + 64; omega

/-- After the launch the result array is the whole product of the two arrays the launch found. -/
theorem final (c : Dev nD) : (dat0 V c).arrAt 2 cfg0.N = matProd (V c main_arg0) (V c main_arg2) :=
  (dat0 V c).arrAt_eq_of_cover 2 _ (fun t _ => flushed_eq V c t) cover

end Cert.KernelIdeal.GcnRegion0

end
-- ==== Proof.Region1.lean ====
/-
  The second launch: the hidden layer and the second support, 400 rows at a time.

  The grid has 25 points. Point t reads rows 400·t … 400·t + 399 of the adjacency (all 10000 columns), the whole
  [10000,64] first support, the bias as a [1,64] row and the whole [64,16] second weights. It multiplies the adjacency
  rows by the support into a zero accumulator, adds the bias row to every row of the product, takes the maximum with
  zero, and writes that [400,64] block back as rows 400·t … of the hidden layer; then it multiplies the same block by
  the second weights into a zero accumulator and writes the [400,16] product back as rows 400·t … of the second support.
  Entry (p, q) of the first block is max (Σ_r adjacency (400·t + p, r) · support (r, q) + bias (0, q), 0): entry
  (400·t + p, q) of the whole hidden layer. Entry (p, q) of the second is Σ_h (that block) (p, h) · weights (h, q): entry
  (400·t + p, q) of the hidden layer times the weights. Both families of 25 row blocks tile their arrays, so after the
  launch the two arrays are those whole functions of the four arrays the launch found — whatever the contents `V` at entry.
-/
import proofs.«124752_g76905684402632_cont_sun_c4_35_2_alg».proof.Proof.Gen.KernelIdeal.Frame
import proofs.«124752_g76905684402632_cont_sun_c4_35_2_alg».proof.Proof.Spec
import proofs.«124752_g76905684402632_cont_sun_c4_35_2_alg».proof.Proof.LibMat
import Idealize.ShloMosaic.Lib.Pipeline.Value
import Idealize.ShloMosaic.Lib.ValueIdx

set_option maxRecDepth 16384

noncomputable section

open scoped BigOperators

namespace Cert.KernelIdeal.GcnRegion1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem origin : (![0, 0] : Fin 2 → Nat) = fun _ => 0 := funext fun a => by fin_cases a <;> rfl

/-! ## The body's two results at an index -/

/-- The bias row broadcast down the block, read at (p, q): the row at column q. -/
theorem bias_apply (v4 : Vec Ideal S1x64 .f32) (p : Fin 400) (q : Fin 64) :
    broadcastTo S400x64 (shapeCast S1x64 v4 shapeCasts_S1x64_S1x64) broadcasts_S1x64_S400x64 (ix2 p q) = v4 (ix2 (0 : Fin 1) q) := by
  rw [shapeCast_self]
  exact broadcastTo_apply v4 broadcasts_S1x64_S400x64 (ix2 p q) (ix2 (0 : Fin 1) q) (fun a => by
    match a with
    | ⟨0, _⟩ => rfl
    | ⟨1, _⟩ => show q.val = if (64 : Nat) = 1 then 0 else q.val; rw [if_neg (by decide)])

/-- The hidden block at (p, q): the product's sum plus the bias at column q, positive part. -/
theorem pay1_apply (v0 : Vec Ideal S400x10000 .f32) (v1 : Vec Ideal S10000x64 .f32) (v4 : Vec Ideal S1x64 .f32) (p : Fin 400) (q : Fin 64) :
    k1_pay1 (F := Ideal) v0 v1 v4 (ix2 p q)
      = max ((∑ r : Fin 10000, v0 (ix2 p r) * v1 (ix2 r q)) + v4 (ix2 (0 : Fin 1) q)) (Ideal.ofBits .f32 0x00000000#32) := by
  unfold k1_pay1
  show max (matmul dot_S400x10000_S10000x64_S400x64_1_0_0_1_n_n none v0 (shapeCast S10000x64 v1 shapeCasts_S10000x64_S10000x64) (constant (F := Ideal) S400x64 .f32 0x00000000#32) (ix2 p q)
      + broadcastTo S400x64 (shapeCast S1x64 v4 shapeCasts_S1x64_S1x64) broadcasts_S1x64_S400x64 (ix2 p q)) (Ideal.ofBits .f32 0x00000000#32) = _
  rw [bias_apply, shapeCast_self]
  exact congrArg (fun z => max (z + v4 (ix2 (0 : Fin 1) q)) (Ideal.ofBits .f32 0x00000000#32)) (Cert.LibMat.matmul_plain_apply _ none v0 v1 p q)

/-- The second-support block at (p, q): the hidden block's row p times the weights' column q. -/
theorem pay2_apply (v0 : Vec Ideal S400x10000 .f32) (v1 : Vec Ideal S10000x64 .f32) (v4 : Vec Ideal S1x64 .f32) (v11 : Vec Ideal S64x16 .f32) (p : Fin 400) (q : Fin 16) :
    k1_pay2 (F := Ideal) v0 v1 v4 v11 (ix2 p q) = ∑ h : Fin 64, k1_pay1 (F := Ideal) v0 v1 v4 (ix2 p h) * v11 (ix2 h q) := by
  unfold k1_pay2
  exact Cert.LibMat.matmul_plain_apply _ none (k1_pay1 (F := Ideal) v0 v1 v4) v11 p q

/-- What the body leaves in the hidden layer's block, at an index of the block. -/
theorem out4_apply (x0 : Vec Ideal S400x10000 .f32) (x1 : Vec Ideal S10000x64 .f32) (x2 : Vec Ideal S1x64 .f32) (x3 : Vec Ideal S64x16 .f32) (y : S400x64.Idx) :
    out1_4 x0 x1 x2 x3 y = max ((∑ r : Fin 10000, x0 (ix2 (y 0) r) * x1 (ix2 r (y 1))) + x2 (ix2 (0 : Fin 1) (y 1))) (Ideal.ofBits .f32 0x00000000#32) := by
  unfold out1_4
  rw [View.canon_unit_zero origin]
  simp only [View.ld_unit_zero (S := S400x10000) origin, View.ld_unit_zero (S := S10000x64) origin, View.ld_unit_zero (S := S1x64) origin]
  obtain ⟨p, q, rfl⟩ : ∃ (p : Fin 400) (q : Fin 64), y = ix2 p q := ⟨y 0, y 1, eq_ix2 y⟩
  exact pay1_apply x0 x1 x2 p q

/-- What the body leaves in the second support's block, at an index of the block. -/
theorem out5_apply (x0 : Vec Ideal S400x10000 .f32) (x1 : Vec Ideal S10000x64 .f32) (x2 : Vec Ideal S1x64 .f32) (x3 : Vec Ideal S64x16 .f32) (y : S400x16.Idx) :
    out1_5 x0 x1 x2 x3 y = ∑ h : Fin 64, (max ((∑ r : Fin 10000, x0 (ix2 (y 0) r) * x1 (ix2 r h)) + x2 (ix2 (0 : Fin 1) h)) (Ideal.ofBits .f32 0x00000000#32)) * x3 (ix2 h (y 1)) := by
  unfold out1_5
  rw [View.canon_unit_zero origin]
  simp only [View.ld_unit_zero (S := S400x10000) origin, View.ld_unit_zero (S := S10000x64) origin, View.ld_unit_zero (S := S1x64) origin, View.ld_unit_zero (S := S64x16) origin]
  obtain ⟨p, q, rfl⟩ : ∃ (p : Fin 400) (q : Fin 16), y = ix2 p q := ⟨y 0, y 1, eq_ix2 y⟩
  rw [pay2_apply]
  exact Finset.sum_congr rfl fun h _ => by rw [pay1_apply]

/-! ## A block of each result from blocks of the operands -/

/-- If the loaded blocks read the adjacency `A` along row `i 0`, the support `S` along column `i 1` and the bias row `Brow`
    at column `i 1`, the hidden block at `y` is the whole hidden layer of `A`, `S` and the bias at `i`. -/
theorem block_read4 (A : S10000x10000.Idx → EReal) (S : S10000x64.Idx → EReal) (Brow : S1x64.Idx → EReal)
    (x0 : Vec Ideal S400x10000 .f32) (x1 : Vec Ideal S10000x64 .f32) (x2 : Vec Ideal S1x64 .f32) (x3 : Vec Ideal S64x16 .f32)
    (y : S400x64.Idx) (i : S10000x64.Idx)
    (h0 : ∀ r : Fin 10000, x0 (ix2 (y 0) r) = A (ix2 (i 0) r)) (h1 : ∀ r : Fin 10000, x1 (ix2 r (y 1)) = S (ix2 r (i 1)))
    (h2 : x2 (ix2 (0 : Fin 1) (y 1)) = Brow (ix2 (0 : Fin 1) (i 1))) :
    out1_4 x0 x1 x2 x3 y = biasRelu (matProd A S) (fun b => Brow (ix2 (0 : Fin 1) (b 0))) i := by
  rw [out4_apply, h2]
  show _ = max ((∑ r : Fin 10000, A (ix2 (i 0) r) * S (ix2 r (i 1))) + Brow (ix2 (0 : Fin 1) (i 1))) (Ideal.ofBits .f32 0x00000000#32)
  exact congrArg (fun z => max (z + Brow (ix2 (0 : Fin 1) (i 1))) (Ideal.ofBits .f32 0x00000000#32)) (Finset.sum_congr rfl fun r _ => by rw [h0, h1])

/-- If moreover the support and the bias row are read whole and the weights `W` along column `i 1`, the second-support
    block at `y` is the hidden layer times the weights at `i`. -/
theorem block_read5 (A : S10000x10000.Idx → EReal) (S : S10000x64.Idx → EReal) (Brow : S1x64.Idx → EReal) (W : S64x16.Idx → EReal)
    (x0 : Vec Ideal S400x10000 .f32) (x1 : Vec Ideal S10000x64 .f32) (x2 : Vec Ideal S1x64 .f32) (x3 : Vec Ideal S64x16 .f32)
    (y : S400x16.Idx) (i : S10000x16.Idx)
    (h0 : ∀ r : Fin 10000, x0 (ix2 (y 0) r) = A (ix2 (i 0) r)) (h1 : ∀ (r : Fin 10000) (h : Fin 64), x1 (ix2 r h) = S (ix2 r h))
    (h2 : ∀ h : Fin 64, x2 (ix2 (0 : Fin 1) h) = Brow (ix2 (0 : Fin 1) h)) (h3 : ∀ h : Fin 64, x3 (ix2 h (y 1)) = W (ix2 h (i 1))) :
    out1_5 x0 x1 x2 x3 y = matProd (biasRelu (matProd A S) (fun b => Brow (ix2 (0 : Fin 1) (b 0)))) W i := by
  rw [out5_apply]
  show _ = ∑ h : Fin 64, (max ((∑ r : Fin 10000, A (ix2 (i 0) r) * S (ix2 r h)) + Brow (ix2 (0 : Fin 1) h)) (Ideal.ofBits .f32 0x00000000#32)) * W (ix2 h (i 1))
  refine Finset.sum_congr rfl fun h _ => ?_
  rw [h2, h3]
  exact congrArg (fun z => max (z + Brow (ix2 (0 : Fin 1) h)) (Ideal.ofBits .f32 0x00000000#32) * W (ix2 h (i 1))) (Finset.sum_congr rfl fun r _ => by rw [h0, h1])

/-! ## The blocks over the grid -/

/-- The block indices over the grid: the adjacency's row block moves with both results', every other block index is 0. -/
theorem idx_facts : ∀ t : Fin cfg1.N, win1_0.index t (0 : Fin 2) = win1_4.index t (0 : Fin 2)
    ∧ win1_0.index t (0 : Fin 2) = win1_5.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (1 : Fin 2) = 0 ∧ win1_5.index t (1 : Fin 2) = 0 :=
  (by decide +kernel : ∀ t : Fin grid1.N, _)

/-- What point `t` writes back to the hidden layer is its block of the whole hidden layer of the arrays the launch found. -/
theorem flushed4_eq (c : Dev nD) (t : Fin cfg1.N) :
    (dat1 V c).flushed 4 t = ((cfg1.win 4).blk t).view.read (Elt Ideal)
      (biasRelu (matProd (V c main_arg1) (V c main_v0)) (fun b => V c main_v1 (ix2 (0 : Fin 1) (b 0)))) := by
  show (cfg1.win 4).cut (grid1.coords t) ((dat1 V c).after 4 t) = _
  rw [after1_4]
  obtain ⟨e0, e0', e1, e2, e3, e4, e5, e6, e7, e8, e9⟩ := idx_facts t
  funext j
  refine block_read4 (V c main_arg1) (V c main_v0) (V c main_v1) (iblk1 V c 0 t) (iblk1 V c 1 t) (iblk1 V c 2 t) (iblk1 V c 3 t) j (((cfg1.win 4).blk t).view.emb j) (fun r => ?_) (fun r => ?_) ?_
  · show V c main_arg1 (((cfg1.win 0).blk t).view.emb (ix2 (j 0) r)) = V c main_arg1 (ix2 ((((cfg1.win 4).blk t).view.emb j) 0) r)
    refine congrArg (V c main_arg1) (funext fun a => Fin.ext ?_)
    match a with
    | ⟨0, _⟩ => show win1_0.index t (0 : Fin 2) * 400 + 1 * (j 0).val = win1_4.index t (0 : Fin 2) * 400 + 1 * (j 0).val; omega
    | ⟨1, _⟩ => show win1_0.index t (1 : Fin 2) * 10000 + 1 * r.val = r.val; omega
  · show V c main_v0 (((cfg1.win 1).blk t).view.emb (ix2 r (j 1))) = V c main_v0 (ix2 r ((((cfg1.win 4).blk t).view.emb j) 1))
    refine congrArg (V c main_v0) (funext fun a => Fin.ext ?_)
    match a with
    | ⟨0, _⟩ => show win1_1.index t (0 : Fin 2) * 10000 + 1 * r.val = r.val; omega
    | ⟨1, _⟩ => show win1_1.index t (1 : Fin 2) * 64 + 1 * (j 1).val = win1_4.index t (1 : Fin 2) * 64 + 1 * (j 1).val; omega
  · show V c main_v1 (((cfg1.win 2).blk t).view.emb (ix2 (0 : Fin 1) (j 1))) = V c main_v1 (ix2 (0 : Fin 1) ((((cfg1.win 4).blk t).view.emb j) 1))
    refine congrArg (V c main_v1) (funext fun a => Fin.ext ?_)
    match a with
    | ⟨0, _⟩ => show win1_2.index t (0 : Fin 2) * 1 + 1 * 0 = 0; omega
    | ⟨1, _⟩ => show win1_2.index t (1 : Fin 2) * 64 + 1 * (j 1).val = win1_4.index t (1 : Fin 2) * 64 + 1 * (j 1).val; omega

/-- What point `t` writes back to the second support is its block of the hidden layer times the weights. -/
theorem flushed5_eq (c : Dev nD) (t : Fin cfg1.N) :
    (dat1 V c).flushed 5 t = ((cfg1.win 5).blk t).view.read (Elt Ideal)
      (matProd (biasRelu (matProd (V c main_arg1) (V c main_v0)) (fun b => V c main_v1 (ix2 (0 : Fin 1) (b 0)))) (V c main_arg4)) := by
  show (cfg1.win 5).cut (grid1.coords t) ((dat1 V c).after 5 t) = _
  rw [after1_5]
  obtain ⟨e0, e0', e1, e2, e3, e4, e5, e6, e7, e8, e9⟩ := idx_facts t
  funext j
  refine block_read5 (V c main_arg1) (V c main_v0) (V c main_v1) (V c main_arg4) (iblk1 V c 0 t) (iblk1 V c 1 t) (iblk1 V c 2 t) (iblk1 V c 3 t) j (((cfg1.win 5).blk t).view.emb j) (fun r => ?_) (fun r h => ?_) (fun h => ?_) (fun h => ?_)
  · show V c main_arg1 (((cfg1.win 0).blk t).view.emb (ix2 (j 0) r)) = V c main_arg1 (ix2 ((((cfg1.win 5).blk t).view.emb j) 0) r)
    refine congrArg (V c main_arg1) (funext fun a => Fin.ext ?_)
    match a with
    | ⟨0, _⟩ => show win1_0.index t (0 : Fin 2) * 400 + 1 * (j 0).val = win1_5.index t (0 : Fin 2) * 400 + 1 * (j 0).val; omega
    | ⟨1, _⟩ => show win1_0.index t (1 : Fin 2) * 10000 + 1 * r.val = r.val; omega
  · show V c main_v0 (((cfg1.win 1).blk t).view.emb (ix2 r h)) = V c main_v0 (ix2 r h)
    refine congrArg (V c main_v0) (funext fun a => Fin.ext ?_)
    match a with
    | ⟨0, _⟩ => show win1_1.index t (0 : Fin 2) * 10000 + 1 * r.val = r.val; omega
    | ⟨1, _⟩ => show win1_1.index t (1 : Fin 2) * 64 + 1 * h.val = h.val; omega
  · show V c main_v1 (((cfg1.win 2).blk t).view.emb (ix2 (0 : Fin 1) h)) = V c main_v1 (ix2 (0 : Fin 1) h)
    refine congrArg (V c main_v1) (funext fun a => Fin.ext ?_)
    match a with
    | ⟨0, _⟩ => show win1_2.index t (0 : Fin 2) * 1 + 1 * 0 = 0; omega
    | ⟨1, _⟩ => show win1_2.index t (1 : Fin 2) * 64 + 1 * h.val = h.val; omega
  · show V c main_arg4 (((cfg1.win 3).blk t).view.emb (ix2 h (j 1))) = V c main_arg4 (ix2 h ((((cfg1.win 5).blk t).view.emb j) 1))
    refine congrArg (V c main_arg4) (funext fun a => Fin.ext ?_)
    match a with
    | ⟨0, _⟩ => show win1_3.index t (0 : Fin 2) * 64 + 1 * h.val = h.val; omega
    | ⟨1, _⟩ => show win1_3.index t (1 : Fin 2) * 16 + 1 * (j 1).val = win1_5.index t (1 : Fin 2) * 16 + 1 * (j 1).val; omega

/-! ## The covers and the whole arrays -/

/-- An index of output 4's array is in point `t`'s block iff each coordinate is in the block's range on its axis. -/
theorem mem_blk4 (t : Fin cfg1.N) (i : S10000x64.Idx) :
    i ∈ ((cfg1.win 4).blk t).view.set ↔ ∀ a : Fin 2, win1_4.index t a * S400x64.size a ≤ (i a).val ∧ (i a).val < win1_4.index t a * S400x64.size a + S400x64.size a := by
  show i ∈ ((View.whole main_v2_0).slice (win1_4.rect t)).set ↔ _
  rw [View.set_slice_whole, Rect.mem_set_unit]
  exact Iff.rfl

/-- Every row block of output 4's array is some point's. -/
theorem idx_onto4 : ∀ q0 : Fin 25, ∃ t : Fin cfg1.N, win1_4.index t = ![q0.val, 0] :=
  (by decide +kernel : ∀ q0 : Fin 25, ∃ t : Fin grid1.N, win1_4.index t = ![q0.val, 0])

/-- The row blocks tile output 4's array: row r is in the block of the point r / 400. -/
theorem cover4 (i : S10000x64.Idx) : ∃ t : Fin cfg1.N, (cfg1.win 4).flush t = true ∧ i ∈ ((cfg1.win 4).blk t).view.set := by
  have hi0 : (i 0).val < 10000 := (i 0).isLt
  have hi1 : (i 1).val < 64 := (i 1).isLt
  obtain ⟨t, ht⟩ := idx_onto4 ⟨(i 0).val / 400, by omega⟩
  have q0 : win1_4.index t (0 : Fin 2) = (i 0).val / 400 := congrFun ht 0
  have q1 : win1_4.index t (1 : Fin 2) = 0 := congrFun ht 1
  refine ⟨t, flush1_4 t, ?_⟩
  rw [mem_blk4]
  intro a
  match a with
  | ⟨0, _⟩ => show win1_4.index t (0 : Fin 2) * 400 ≤ (i 0).val ∧ (i 0).val < win1_4.index t (0 : Fin 2) * 400 + 400; omega
  | ⟨1, _⟩ => show win1_4.index t (1 : Fin 2) * 64 ≤ (i 1).val ∧ (i 1).val < win1_4.index t (1 : Fin 2) * 64 + 64; omega

/-- An index of output 5's array is in point `t`'s block iff each coordinate is in the block's range on its axis. -/
theorem mem_blk5 (t : Fin cfg1.N) (i : S10000x16.Idx) :
    i ∈ ((cfg1.win 5).blk t).view.set ↔ ∀ a : Fin 2, win1_5.index t a * S400x16.size a ≤ (i a).val ∧ (i a).val < win1_5.index t a * S400x16.size a + S400x16.size a := by
  show i ∈ ((View.whole main_v2_1).slice (win1_5.rect t)).set ↔ _
  rw [View.set_slice_whole, Rect.mem_set_unit]
  exact Iff.rfl

/-- Every row block of output 5's array is some point's. -/
theorem idx_onto5 : ∀ q0 : Fin 25, ∃ t : Fin cfg1.N, win1_5.index t = ![q0.val, 0] :=
  (by decide +kernel : ∀ q0 : Fin 25, ∃ t : Fin grid1.N, win1_5.index t = ![q0.val, 0])

/-- The row blocks tile output 5's array: row r is in the block of the point r / 400. -/
theorem cover5 (i : S10000x16.Idx) : ∃ t : Fin cfg1.N, (cfg1.win 5).flush t = true ∧ i ∈ ((cfg1.win 5).blk t).view.set := by
  have hi0 : (i 0).val < 10000 := (i 0).isLt
  have hi1 : (i 1).val < 16 := (i 1).isLt
  obtain ⟨t, ht⟩ := idx_onto5 ⟨(i 0).val / 400, by omega⟩
  have q0 : win1_5.index t (0 : Fin 2) = (i 0).val / 400 := congrFun ht 0
  have q1 : win1_5.index t (1 : Fin 2) = 0 := congrFun ht 1
  refine ⟨t, flush1_5 t, ?_⟩
  rw [mem_blk5]
  intro a
  match a with
  | ⟨0, _⟩ => show win1_5.index t (0 : Fin 2) * 400 ≤ (i 0).val ∧ (i 0).val < win1_5.index t (0 : Fin 2) * 400 + 400; omega
  | ⟨1, _⟩ => show win1_5.index t (1 : Fin 2) * 16 ≤ (i 1).val ∧ (i 1).val < win1_5.index t (1 : Fin 2) * 16 + 16; omega

/-- After the launch the hidden layer's array is the whole hidden layer of the arrays the launch found. -/
theorem final4 (c : Dev nD) : (dat1 V c).arrAt 4 cfg1.N
    = biasRelu (matProd (V c main_arg1) (V c main_v0)) (fun b => V c main_v1 (ix2 (0 : Fin 1) (b 0))) :=
  (dat1 V c).arrAt_eq_of_cover 4 _ (fun t _ => flushed4_eq V c t) cover4

/-- After the launch the second support's array is that hidden layer times the weights the launch found. -/
theorem final5 (c : Dev nD) : (dat1 V c).arrAt 5 cfg1.N
    = matProd (biasRelu (matProd (V c main_arg1) (V c main_v0)) (fun b => V c main_v1 (ix2 (0 : Fin 1) (b 0)))) (V c main_arg4) :=
  (dat1 V c).arrAt_eq_of_cover 5 _ (fun t _ => flushed5_eq V c t) cover5

end Cert.KernelIdeal.GcnRegion1

end
-- ==== Proof.Region2.lean ====
/-
  The third launch: the adjacency times the second support, 400 rows at a time.

  The grid has 25 points. Point t reads rows 400·t … 400·t + 399 of the adjacency (all 10000 columns) and the whole
  [10000,16] support, multiplies them into a zero accumulator, and writes the [400,16] product back as rows
  400·t … 400·t + 399 of the result. Entry (p, q) of that block is the sum over r of adjacency (400·t + p, r) · support (r, q):
  entry (400·t + p, q) of the whole product. The 25 row blocks tile the result, so after the launch the result array is
  the whole product of the two arrays the launch found — whatever the buffer contents `V` at its entry.
-/
import proofs.«124752_g76905684402632_cont_sun_c4_35_2_alg».proof.Proof.Gen.KernelIdeal.Frame
import proofs.«124752_g76905684402632_cont_sun_c4_35_2_alg».proof.Proof.Spec
import proofs.«124752_g76905684402632_cont_sun_c4_35_2_alg».proof.Proof.LibMat
import Idealize.ShloMosaic.Lib.Pipeline.Value
import Idealize.ShloMosaic.Lib.ValueIdx

set_option maxRecDepth 16384

noncomputable section

open scoped BigOperators

namespace Cert.KernelIdeal.GcnRegion2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gcn

variable (V : (c : Dev nD) → (b : Ref sig .tc) → Buf (Elt Ideal) ((c : Thread nD τ).loc b))

theorem origin : (![0, 0] : Fin 2 → Nat) = fun _ => 0 := funext fun a => by fin_cases a <;> rfl

/-- The body's product of the two loaded blocks, at (p, q): the sum over the shared coordinate. -/
theorem pay_apply (x0 : Vec Ideal S400x10000 .f32) (x1 : Vec Ideal S10000x16 .f32) (p : Fin 400) (q : Fin 16) :
    k2_pay1 (F := Ideal) x0 x1 (ix2 p q) = ∑ r : Fin 10000, x0 (ix2 p r) * x1 (ix2 r q) := by
  unfold k2_pay1
  rw [shapeCast_self]
  exact Cert.LibMat.matmul_plain_apply _ none x0 x1 p q

/-- What the body leaves in the output block, at an index of the block. -/
theorem out_apply (x0 : Vec Ideal S400x10000 .f32) (x1 : Vec Ideal S10000x16 .f32) (y : S400x16.Idx) :
    out2_2 x0 x1 y = ∑ r : Fin 10000, x0 (ix2 (y 0) r) * x1 (ix2 r (y 1)) := by
  unfold out2_2
  rw [View.canon_unit_zero origin]
  simp only [View.ld_unit_zero (S := S400x10000) origin, View.ld_unit_zero (S := S10000x16) origin]
  obtain ⟨p, q, rfl⟩ : ∃ (p : Fin 400) (q : Fin 16), y = ix2 p q := ⟨y 0, y 1, eq_ix2 y⟩
  exact pay_apply x0 x1 p q

/-- A block of the product from blocks of the factors: if the loaded blocks read the arrays `A` and `B` along row
    `i 0` and column `i 1`, the body's result at `y` is the whole product of `A` and `B` at `i`. -/
theorem block_read (A : S10000x10000.Idx → EReal) (B : S10000x16.Idx → EReal) (x0 : Vec Ideal S400x10000 .f32) (x1 : Vec Ideal S10000x16 .f32)
    (y : S400x16.Idx) (i : S10000x16.Idx)
    (h0 : ∀ r : Fin 10000, x0 (ix2 (y 0) r) = A (ix2 (i 0) r)) (h1 : ∀ r : Fin 10000, x1 (ix2 r (y 1)) = B (ix2 r (i 1))) :
    out2_2 x0 x1 y = matProd A B i := by
  rw [out_apply]
  exact Finset.sum_congr rfl fun r _ => by rw [h0, h1]

/-- The block indices over the grid: the adjacency's row block moves with the result's, every other block index is 0. -/
theorem idx_facts : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 :=
  (by decide +kernel : ∀ t : Fin grid2.N, _)

/-- Every row block of the result is some point's. -/
theorem idx_onto : ∀ q0 : Fin 25, ∃ t : Fin cfg2.N, win2_2.index t = ![q0.val, 0] :=
  (by decide +kernel : ∀ q0 : Fin 25, ∃ t : Fin grid2.N, win2_2.index t = ![q0.val, 0])

/-- What point `t` writes back is its block of the whole product of the arrays the launch found. -/
theorem flushed_eq (c : Dev nD) (t : Fin cfg2.N) :
    (dat2 V c).flushed 2 t = ((cfg2.win 2).blk t).view.read (Elt Ideal) (matProd (V c main_arg1) (V c main_v2_1)) := by
  show (cfg2.win 2).cut (grid2.coords t) ((dat2 V c).after 2 t) = _
  rw [after2_2]
  obtain ⟨e0, e1, e2, e3, e4⟩ := idx_facts t
  funext j
  refine block_read (V c main_arg1) (V c main_v2_1) (iblk2 V c 0 t) (iblk2 V c 1 t) j (((cfg2.win 2).blk t).view.emb j) (fun r => ?_) (fun r => ?_)
  · show V c main_arg1 (((cfg2.win 0).blk t).view.emb (ix2 (j 0) r)) = V c main_arg1 (ix2 ((((cfg2.win 2).blk t).view.emb j) 0) r)
    refine congrArg (V c main_arg1) (funext fun a => Fin.ext ?_)
    match a with
    | ⟨0, _⟩ => show win2_0.index t (0 : Fin 2) * 400 + 1 * (j 0).val = win2_2.index t (0 : Fin 2) * 400 + 1 * (j 0).val; omega
    | ⟨1, _⟩ => show win2_0.index t (1 : Fin 2) * 10000 + 1 * r.val = r.val; omega
  · show V c main_v2_1 (((cfg2.win 1).blk t).view.emb (ix2 r (j 1))) = V c main_v2_1 (ix2 r ((((cfg2.win 2).blk t).view.emb j) 1))
    refine congrArg (V c main_v2_1) (funext fun a => Fin.ext ?_)
    match a with
    | ⟨0, _⟩ => show win2_1.index t (0 : Fin 2) * 10000 + 1 * r.val = r.val; omega
    | ⟨1, _⟩ => show win2_1.index t (1 : Fin 2) * 16 + 1 * (j 1).val = win2_2.index t (1 : Fin 2) * 16 + 1 * (j 1).val; omega

/-- An index of the result is in point `t`'s block iff each coordinate is in the block's range on its axis. -/
theorem mem_blk (t : Fin cfg2.N) (i : S10000x16.Idx) :
    i ∈ ((cfg2.win 2).blk t).view.set ↔ ∀ a : Fin 2, win2_2.index t a * S400x16.size a ≤ (i a).val ∧ (i a).val < win2_2.index t a * S400x16.size a + S400x16.size a := by
  show i ∈ ((View.whole main_v3).slice (win2_2.rect t)).set ↔ _
  rw [View.set_slice_whole, Rect.mem_set_unit]
  exact Iff.rfl

/-- The row blocks tile the result: row r is in the block of the point r / 400. -/
theorem cover (i : S10000x16.Idx) : ∃ t : Fin cfg2.N, (cfg2.win 2).flush t = true ∧ i ∈ ((cfg2.win 2).blk t).view.set := by
  have hi0 : (i 0).val < 10000 := (i 0).isLt
  have hi1 : (i 1).val < 16 := (i 1).isLt
  obtain ⟨t, ht⟩ := idx_onto ⟨(i 0).val / 400, by omega⟩
  have q0 : win2_2.index t (0 : Fin 2) = (i 0).val / 400 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 400 ≤ (i 0).val ∧ (i 0).val < win2_2.index t (0 : Fin 2) * 400 + 400; omega
  | ⟨1, _⟩ => show win2_2.index t (1 : Fin 2) * 16 ≤ (i 1).val ∧ (i 1).val < win2_2.index t (1 : Fin 2) * 16 + 16; omega

/-- After the launch the result array is the whole product of the two arrays the launch found. -/
theorem final (c : Dev nD) : (dat2 V c).arrAt 2 cfg2.N = matProd (V c main_arg1) (V c main_v2_1) :=
  (dat2 V c).arrAt_eq_of_cover 2 _ (fun t _ => flushed_eq V c t) cover

end Cert.KernelIdeal.GcnRegion2

end
-- ==== Proof.Value.lean ====
/-
  The kernel's two results as functions of its five arguments.

  Following the buffers through the program (the contents at each boundary are `W0` … `W4`):
    · the first launch finds the features and the first weights as launched and leaves the first support, their product;
    · the host reshape then writes the bias as a [1,64] row and touches nothing else;
    · the second launch finds the adjacency and the second weights as launched, the first support as the first launch
      left it and the bias row as the reshape left it, and leaves the hidden layer and the second support;
    · the third launch finds the adjacency as launched and the second support as the second launch left it, leaves the
      output layer, and does not touch the hidden layer.
  So at the end the hidden layer's buffer holds `hidden` and the output's holds `output` of the launch contents of the
  five arguments, which themselves end as launched.
-/
import proofs.«124752_g76905684402632_cont_sun_c4_35_2_alg».proof.Proof.KernelRun
import proofs.«124752_g76905684402632_cont_sun_c4_35_2_alg».proof.Proof.Region0
import proofs.«124752_g76905684402632_cont_sun_c4_35_2_alg».proof.Proof.Region1
import proofs.«124752_g76905684402632_cont_sun_c4_35_2_alg».proof.Proof.Region2
import Idealize.ShloMosaic.Lib.StableHlo.Run

set_option maxRecDepth 16384

noncomputable section

open scoped BigOperators

namespace Cert.KernelIdeal.GcnValue

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.Gcn

variable (m : (ℓ : Loc nD τ sig) → Buf (Elt Ideal) ℓ) (ρ : Dev nD → PrngReg)

/-- The five arguments' launch contents on core `c`, as arrays of extended reals. -/
abbrev argX (c : Dev nD) : S10000x128.Idx → EReal := m ((c : Thread nD τ).loc main_arg0)
abbrev argAdj (c : Dev nD) : S10000x10000.Idx → EReal := m ((c : Thread nD τ).loc main_arg1)
abbrev argW1 (c : Dev nD) : S128x64.Idx → EReal := m ((c : Thread nD τ).loc main_arg2)
abbrev argB1 (c : Dev nD) : S64.Idx → EReal := m ((c : Thread nD τ).loc main_arg3)
abbrev argW2 (c : Dev nD) : S64x16.Idx → EReal := m ((c : Thread nD τ).loc main_arg4)

/-! ## The host reshape -/

/-- The host reshape between the first two launches writes only the bias row: `main_arg1` passes it unchanged. -/
theorem host_keeps_adj (c : Dev nD) : W2 m ρ c (Proc.devRef .tc main_arg1) = W1 m ρ c (Proc.devRef .tc main_arg1) :=
  StableHlo.after_of_forall_not_mem (b := Proc.devRef .tc main_arg1) _ _ (List.forall_iff_forall_mem.mp (by
    simp only [hostOps1, List.flatten_cons, List.flatten_nil, List.append_nil, List.cons_append,
      List.nil_append, List.Forall, StableHlo.reshape_writes, Finset.mem_singleton]
    repeat' apply And.intro
    all_goals exact StableHlo.devRef_ne_of_ne (by decide)))

/-- The host reshape between the first two launches writes only the bias row: `main_arg4` passes it unchanged. -/
theorem host_keeps_w2 (c : Dev nD) : W2 m ρ c (Proc.devRef .tc main_arg4) = W1 m ρ c (Proc.devRef .tc main_arg4) :=
  StableHlo.after_of_forall_not_mem (b := Proc.devRef .tc main_arg4) _ _ (List.forall_iff_forall_mem.mp (by
    simp only [hostOps1, List.flatten_cons, List.flatten_nil, List.append_nil, List.cons_append,
      List.nil_append, List.Forall, StableHlo.reshape_writes, Finset.mem_singleton]
    repeat' apply And.intro
    all_goals exact StableHlo.devRef_ne_of_ne (by decide)))

/-- The host reshape between the first two launches writes only the bias row: `main_v0` passes it unchanged. -/
theorem host_keeps_s1 (c : Dev nD) : W2 m ρ c (Proc.devRef .tc main_v0) = W1 m ρ c (Proc.devRef .tc main_v0) :=
  StableHlo.after_of_forall_not_mem (b := Proc.devRef .tc main_v0) _ _ (List.forall_iff_forall_mem.mp (by
    simp only [hostOps1, List.flatten_cons, List.flatten_nil, List.append_nil, List.cons_append,
      List.nil_append, List.Forall, StableHlo.reshape_writes, Finset.mem_singleton]
    repeat' apply And.intro
    all_goals exact StableHlo.devRef_ne_of_ne (by decide)))

/-- The reshape's result: the bias as one row, read at column q. -/
theorem bias_row (c : Dev nD) (q : Fin 64) : V2 m ρ c main_v1 (ix2 (0 : Fin 1) q) = argB1 m c (ix1 q) := by
  have e : (W2 m ρ c (Proc.devRef .tc main_v1) : S1x64.Idx → EReal)
      = shapeCast S1x64 (W1 m ρ c (Proc.devRef .tc main_arg3) : S64.Idx → EReal) shapeCasts_S64_S1x64 := by
    show StableHlo.after hostOps1 (W1 m ρ c) (Proc.devRef .tc main_v1) = _
    after_results
    rfl
  have e3 : W1 m ρ c (Proc.devRef .tc main_arg3) = W0 m ρ c (Proc.devRef .tc main_arg3) := W1_of_ne m ρ c main_arg3 (by decide)
  show (W2 m ρ c (Proc.devRef .tc main_v1) : S1x64.Idx → EReal) (ix2 (0 : Fin 1) q) = _
  rw [e, e3]
  refine (shapeCast_addUnit_apply ![64] _ shapeCasts_S64_S1x64 (ix2 (0 : Fin 1) q)).trans ?_
  show (W0 m ρ c (Proc.devRef .tc main_arg3) : S64.Idx → EReal) (fun a => ix2 (0 : Fin 1) q a.succ) = m ((c : Thread nD τ).loc main_arg3) (ix1 q)
  exact congrArg (m ((c : Thread nD τ).loc main_arg3)) (funext fun a => by match a with | ⟨0, _⟩ => rfl)

/-! ## What the second launch finds -/

theorem entry1_adj (c : Dev nD) : V2 m ρ c main_arg1 = argAdj m c :=
  (host_keeps_adj m ρ c).trans (W1_of_ne m ρ c main_arg1 (by decide))

theorem entry1_w2 (c : Dev nD) : V2 m ρ c main_arg4 = argW2 m c :=
  (host_keeps_w2 m ρ c).trans (W1_of_ne m ρ c main_arg4 (by decide))

/-- The first support, as the first launch left it. -/
theorem entry1_s1 (c : Dev nD) : V2 m ρ c main_v0 = support1 (argX m c) (argW1 m c) :=
  (host_keeps_s1 m ρ c).trans ((W1_arr m ρ c 2).trans (GcnRegion0.final (V0 m ρ) c))

theorem entry1_bias (c : Dev nD) : (fun b : S64.Idx => V2 m ρ c main_v1 (ix2 (0 : Fin 1) (b 0))) = argB1 m c :=
  funext fun b => (bias_row m ρ c (b 0)).trans (congrArg (argB1 m c) (eq_ix1 b).symm)

/-! ## What the second launch leaves, and what the third finds -/

/-- The hidden layer, after the second launch. -/
theorem hidden_after1 (c : Dev nD) : W3 m ρ c (Proc.devRef .tc main_v2_0) = hidden (argX m c) (argAdj m c) (argW1 m c) (argB1 m c) := by
  refine (W3_arr m ρ c 4).trans ((GcnRegion1.final4 (V2 m ρ) c).trans ?_)
  rw [entry1_adj, entry1_s1, entry1_bias]
  rfl

/-- The second support, after the second launch: what the third launch finds. -/
theorem entry2_s2 (c : Dev nD) : V3 m ρ c main_v2_1 = support2 (argX m c) (argAdj m c) (argW1 m c) (argB1 m c) (argW2 m c) := by
  refine (W3_arr m ρ c 5).trans ((GcnRegion1.final5 (V2 m ρ) c).trans ?_)
  rw [entry1_adj, entry1_s1, entry1_bias, entry1_w2]
  rfl

/-- The second launch only reads the adjacency. -/
theorem entry2_adj (c : Dev nD) : V3 m ρ c main_arg1 = argAdj m c :=
  ((W3_arr m ρ c 0).trans (((dat1 (V2 m ρ) c).arrAt_in 0 rfl _).trans (A_eq1 (V2 m ρ) c 0))).trans (entry1_adj m ρ c)

/-! ## The two results at the end -/

/-- The third launch does not touch the hidden layer: the first result. -/
theorem hidden_final (c : Dev nD) : W4 m ρ c (Proc.devRef .tc main_v2_0) = hidden (argX m c) (argAdj m c) (argW1 m c) (argB1 m c) :=
  (W4_of_ne m ρ c main_v2_0 (by decide)).trans (hidden_after1 m ρ c)

/-- The third launch leaves the output layer: the second result. -/
theorem output_final (c : Dev nD) : W4 m ρ c (Proc.devRef .tc main_v3) = output (argX m c) (argAdj m c) (argW1 m c) (argB1 m c) (argW2 m c) := by
  refine (W4_arr m ρ c 2).trans ((GcnRegion2.final (V3 m ρ) c).trans ?_)
  rw [entry2_adj, entry2_s2]
  rfl

/-! ## The run, with the results' values -/

/-- Every weakly fair execution of the kernel from `m` terminates without a fault; its two results end at `hidden` and
    `output` of the arguments' launch contents, and the arguments end as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2_0) = hidden (argX m c) (argAdj m c) (argW1 m c) (argB1 m c)
      ∧ r.2.mem ((c.tc : Thread nD τ).loc main_v3) = output (argX m c) (argAdj m c) (argW1 m c) (argB1 m c) (argW2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v2_0 (by decide))).trans (hidden_final m ρ c),
     (h c _ (mem_uc main_v3 (by decide))).trans (output_final m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c)⟩)
    (GcnRun.run_final m ρ)

end Cert.KernelIdeal.GcnValue

end
-- ==== Proof.RefSpec.lean ====
/-
  The reference computes the specification.

  The reference is four matrix products, a bias broadcast along rows, an addition and a maximum with a zero splat, one
  after another on whole arrays. Read at an index, each product is the sum over the shared coordinate (the generated
  read-at-an-index lemmas say so, with the two factors' indices spelt coordinate by coordinate); those index functions
  are the row-and-column indices the specification uses, the two broadcasts of the bias read it at the column, and the
  splat reads the zero word. So the reference's first result is `hidden` and its second is `output`.
-/
import proofs.«124752_g76905684402632_cont_sun_c4_35_2_alg».proof.Proof.Gen.ReferenceIdeal.Read
import proofs.«124752_g76905684402632_cont_sun_c4_35_2_alg».proof.Proof.Spec

noncomputable section

open scoped BigOperators

namespace Cert.ReferenceIdeal.RefSpec

open Cert.ReferenceIdeal Cert.ReferenceIdeal.Read Idealize.ShloMosaic Idealize.ShloMosaic.ValueIdx Cert.Gcn

/-! ## The factors' indices are row-and-column indices -/

theorem lidx0 (i : S10000x64.Idx) (k : Fin 128) : lidx_main_v0 i k = ix2 (i 0) k :=
  funext fun a => Fin.ext (by match a with | ⟨0, _⟩ => rfl | ⟨1, _⟩ => rfl)
theorem ridx0 (i : S10000x64.Idx) (k : Fin 128) : ridx_main_v0 i k = ix2 k (i 1) :=
  funext fun a => Fin.ext (by match a with | ⟨0, _⟩ => rfl | ⟨1, _⟩ => rfl)
theorem lidx1 (i : S10000x64.Idx) (k : Fin 10000) : lidx_main_v1 i k = ix2 (i 0) k :=
  funext fun a => Fin.ext (by match a with | ⟨0, _⟩ => rfl | ⟨1, _⟩ => rfl)
theorem ridx1 (i : S10000x64.Idx) (k : Fin 10000) : ridx_main_v1 i k = ix2 k (i 1) :=
  funext fun a => Fin.ext (by match a with | ⟨0, _⟩ => rfl | ⟨1, _⟩ => rfl)
theorem lidx6 (i : S10000x16.Idx) (k : Fin 64) : lidx_main_v6 i k = ix2 (i 0) k :=
  funext fun a => Fin.ext (by match a with | ⟨0, _⟩ => rfl | ⟨1, _⟩ => rfl)
theorem ridx6 (i : S10000x16.Idx) (k : Fin 64) : ridx_main_v6 i k = ix2 k (i 1) :=
  funext fun a => Fin.ext (by match a with | ⟨0, _⟩ => rfl | ⟨1, _⟩ => rfl)
theorem lidx7 (i : S10000x16.Idx) (k : Fin 10000) : lidx_main_v7 i k = ix2 (i 0) k :=
  funext fun a => Fin.ext (by match a with | ⟨0, _⟩ => rfl | ⟨1, _⟩ => rfl)
theorem ridx7 (i : S10000x16.Idx) (k : Fin 10000) : ridx_main_v7 i k = ix2 k (i 1) :=
  funext fun a => Fin.ext (by match a with | ⟨0, _⟩ => rfl | ⟨1, _⟩ => rfl)
/-- The bias, broadcast to one row and then to every row, is read at the column. -/
theorem bias_idx (i : S10000x64.Idx) : idx_main_v2 (idx_main_v3 i) = ix1 (i 1) :=
  funext fun a => Fin.ext (by match a with | ⟨0, _⟩ => rfl)

variable (x0 : (⟨S10000x128, .f32⟩ : BufTy).Contents (Elt Ideal)) (x1 : (⟨S10000x10000, .f32⟩ : BufTy).Contents (Elt Ideal))
  (x2 : (⟨S128x64, .f32⟩ : BufTy).Contents (Elt Ideal)) (x3 : (⟨S64, .f32⟩ : BufTy).Contents (Elt Ideal))
  (x4 : (⟨S64x16, .f32⟩ : BufTy).Contents (Elt Ideal))

/-! ## Stage by stage -/

/-- The features times the first weights. -/
theorem v0_eq : val_main_v0 (F := Ideal) x0 x2 = support1 x0 x2 := by
  funext i
  rw [val_main_v0_apply]
  show _ = ∑ c : Fin 128, x0 (ix2 (i 0) c) * x2 (ix2 c (i 1))
  exact Finset.sum_congr rfl fun k _ => by rw [lidx0, ridx0]; rfl

/-- The adjacency times the first support. -/
theorem v1_eq : val_main_v1 (F := Ideal) x0 x1 x2 = matProd x1 (support1 x0 x2) := by
  funext i
  rw [val_main_v1_apply, v0_eq]
  show _ = ∑ c : Fin 10000, x1 (ix2 (i 0) c) * support1 x0 x2 (ix2 c (i 1))
  exact Finset.sum_congr rfl fun k _ => by rw [lidx1, ridx1]; rfl

/-- The reference's first result is the hidden layer. -/
theorem v5_eq : val_main_v5 (F := Ideal) x0 x1 x2 x3 = hidden x0 x1 x2 x3 := by
  funext i
  rw [val_main_v5_apply, val_main_v4_apply, val_main_call0_v0_apply, val_main_call0_cst_apply, val_main_v3_apply,
    val_main_v2_apply, v1_eq, bias_idx]
  rfl

/-- The hidden layer times the second weights. -/
theorem v6_eq : val_main_v6 (F := Ideal) x0 x1 x2 x3 x4 = support2 x0 x1 x2 x3 x4 := by
  funext i
  rw [val_main_v6_apply, v5_eq]
  show _ = ∑ c : Fin 64, hidden x0 x1 x2 x3 (ix2 (i 0) c) * x4 (ix2 c (i 1))
  exact Finset.sum_congr rfl fun k _ => by rw [lidx6, ridx6]; rfl

/-- The reference's second result is the output layer. -/
theorem v7_eq : val_main_v7 (F := Ideal) x0 x1 x2 x3 x4 = output x0 x1 x2 x3 x4 := by
  funext i
  rw [val_main_v7_apply, v6_eq]
  show _ = ∑ c : Fin 10000, x1 (ix2 (i 0) c) * support2 x0 x1 x2 x3 x4 (ix2 c (i 1))
  exact Finset.sum_congr rfl fun k _ => by rw [lidx7, ridx7]; rfl

end Cert.ReferenceIdeal.RefSpec

end
-- ==== Proof.lean ====
/-
  A two-layer graph convolution with a dense adjacency, computed by three launches, against its array-level reference.

  Both programs compute, from features x : [10000,128], an adjacency adj : [10000,10000], weights w1 : [128,64],
  w2 : [64,16] and a bias b1 : [64],
      hidden = max (adj · (x · w1) + b1, 0)        and        out = adj · (hidden · w2),
  and return the pair (hidden, out). The reference forms the four matrix products on whole arrays. The kernel forms
  x · w1 in row blocks of 2000; then, in row blocks of 400 of the adjacency, the hidden layer and in the same pass its
  product with w2; then adj times that product, again in row blocks of 400. Over the extended reals a product formed
  block of rows by block of rows is the whole product: every entry is the same sum over the shared axis, taken in the
  same order, so no law of arithmetic is needed beyond reading both sides at an index — in particular nothing depends
  on the inputs being finite. The zero the maximum compares against is the same binary word in both programs.

  The pieces: `Spec` states the two results as functions of the five arguments; `RefSpec` shows the reference's run
  ends at them; `Region0`, `Region1`, `Region2` show each launch leaves its arrays at the corresponding whole-array
  function of what it found; `KernelRun` is the kernel's run with every buffer named at the end and `Value` follows
  the buffers through the three launches and the reshape of the bias between the first two. Here the five claims are
  put together: the three runs terminate without a fault with the arguments unchanged; the idealized kernel is the
  kernel's own text read over the extended reals (no operation was rewritten, so there is nothing to preserve); and
  the two idealized programs, from memories that agree on the arguments, end with equal results.
-/
import proofs.«124752_g76905684402632_cont_sun_c4_35_2_alg».proof.Defs
import proofs.«124752_g76905684402632_cont_sun_c4_35_2_alg».proof.Proof.Gen.Kernel
import proofs.«124752_g76905684402632_cont_sun_c4_35_2_alg».proof.Proof.Gen.Kernel.Frame
import proofs.«124752_g76905684402632_cont_sun_c4_35_2_alg».proof.Proof.Gen.KernelIdeal
import proofs.«124752_g76905684402632_cont_sun_c4_35_2_alg».proof.Proof.Gen.KernelIdeal.Frame
import proofs.«124752_g76905684402632_cont_sun_c4_35_2_alg».proof.Proof.Gen.ReferenceIdeal
import proofs.«124752_g76905684402632_cont_sun_c4_35_2_alg».proof.Proof.Gen.ReferenceIdeal.Run
import proofs.«124752_g76905684402632_cont_sun_c4_35_2_alg».proof.Proof.Gen.ReferenceIdeal.Read
import proofs.«124752_g76905684402632_cont_sun_c4_35_2_alg».proof.Proof.Gen.Pre_finite_inputs
import proofs.«124752_g76905684402632_cont_sun_c4_35_2_alg».proof.Proof.Value
import proofs.«124752_g76905684402632_cont_sun_c4_35_2_alg».proof.Proof.RefSpec
import Idealize.ShloMosaic.Adequacy
import Idealize.ShloMosaic.Init

noncomputable section

namespace Cert.Proof

open Idealize.ShloMosaic Idealize.ShloMosaic.TcCoe Idealize.SL.Sem

/-- The kernel as printed runs to the end, nothing faulting, its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run with the two results' values dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation of the kernel was rewritten for the ideal reading: nothing to preserve. -/
theorem preserves : Cert.preserves_Kernel_KernelIdeal := trivial

/-- From memories that agree on the five arguments the kernel ends with `hidden` and `output` of them in its two
    results, and the reference ends with the same two functions of the same arguments. -/
theorem algebraic : Cert.algebraic_KernelIdeal_ReferenceIdeal := by
  intro m ρ m' ρ' _ hagree
  refine ⟨_, _, Cert.KernelIdeal.GcnValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v5_eq, Cert.ReferenceIdeal.RefSpec.v5_eq,
      (hagree c).1, (hagree c).2.1, (hagree c).2.2.1, (hagree c).2.2.2.1]
  · rw [Cert.ReferenceIdeal.Read.val_main_v7_eq, Cert.ReferenceIdeal.RefSpec.v7_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
